-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 16
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S8192x4096, .bf16⟩
  | .hbm, ⟨11, _⟩ => ⟨S8192x4096, .f32⟩
  | .hbm, ⟨12, _⟩ => ⟨S8192x4096, .f32⟩
  | .hbm, ⟨13, _⟩ => ⟨S8192x4096, .bf16⟩
  | .hbm, ⟨14, _⟩ => ⟨S1x4096, .f32⟩
  | .hbm, ⟨15, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S4096x4096.size a
  hwx0_2 : ∀ i : grid0.Coords, EltTy.bits .bf16 = 32 ∨ (Rect.block (s := S4096x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .bf16 = 32 ∨ (Rect.block (s := S4096x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v6) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i1⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.SplitLaw.lean ====
/-
  A masked linear layer, and its three-product form over high and low parts, on the extended reals.

  `linear x W b` is the plain layer: entry (r, c) is the sum over k of x(r, k) · W(c, k), plus b(c); the weight is
  used transposed, so row c of W meets row r of x.  `masked w mk` is a weight whose entries are multiplied by a
  one-bit mask read as the number 0 or 1.

  `split3 xh xl wh wl b2` is the error-compensated form: every operand is split into a high part and a low
  residual, and the product is taken as high·high + high·low + low·high (the low·low term is dropped), plus a
  one-row bias.  When the residuals are taken exactly — low = value − high with high = value — each residual
  is value − value.  On the extended reals that difference is 0 only for a value that is a real number
  (∞ − ∞ is not 0), and then the two correction sums are sums of zeros: the three-product form is the plain layer.
  Products with 0 and sums of zeros need no finiteness; only the residuals do.
-/
import Idealize.ShloMosaic.PureOps.Ideal.Laws
import Idealize.ShloMosaic.Lib.ValueIdx

noncomputable section

namespace SparseSplit

open Idealize.ShloMosaic Idealize.ShloMosaic.ValueIdx

/-- A real number minus itself is zero on the extended reals. -/
theorem coe_sub_self (r : ℝ) : ((r : ℝ) : EReal) - ((r : ℝ) : EReal) = 0 := by
  rw [← EReal.coe_sub, sub_self, EReal.coe_zero]

/-- An extended real that is a real number has zero residual against itself. -/
theorem sub_self_of_real {a : EReal} (h : ∃ r : ℝ, a = (r : EReal)) : a - a = 0 := by
  obtain ⟨r, rfl⟩ := h
  exact coe_sub_self r

/-- A real number times a natural number read as a real is a real number. -/
theorem real_mul_nat {a : EReal} (h : ∃ r : ℝ, a = (r : EReal)) (n : ℕ) :
    ∃ r : ℝ, a * (((n : ℝ)) : EReal) = (r : EReal) := by
  obtain ⟨r, rfl⟩ := h
  exact ⟨r * (n : ℝ), (EReal.coe_mul r (n : ℝ)).symm⟩

/-- With both residual families zero, high·high + high·low + low·high is high·high. -/
theorem three_sums {ι : Type} [Fintype ι] (a b al bl : ι → EReal) (hal : ∀ k, al k = 0) (hbl : ∀ k, bl k = 0) :
    (∑ k, a k * b k + ∑ k, a k * bl k) + ∑ k, al k * b k = ∑ k, a k * b k := by
  simp only [hal, hbl, mul_zero, zero_mul, Finset.sum_const_zero, add_zero]

/-- A weight with a one-bit mask applied: each entry times its mask bit read as 0 or 1. -/
def masked (w : (⟨2, ![4096, 4096]⟩ : Shape).Idx → EReal) (mk : (⟨2, ![4096, 4096]⟩ : Shape).Idx → BitVec 1) :
    (⟨2, ![4096, 4096]⟩ : Shape).Idx → EReal :=
  fun i => w i * ((((mk i).toNat : ℝ)) : EReal)

/-- The plain layer: entry (r, c) is Σₖ x(r, k) · W(c, k) + b(c). -/
def linear (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * W (ix2 (i 1) k)) + b (ix1 (i 1))

/-- The three-product form: high·high + high·low + low·high, plus a one-row bias. -/
def split3 (xh xl : (⟨2, ![8192, 4096]⟩ : Shape).Idx → EReal) (wh wl : (⟨2, ![4096, 4096]⟩ : Shape).Idx → EReal)
    (b2 : (⟨2, ![1, 4096]⟩ : Shape).Idx → EReal) : (⟨2, ![8192, 4096]⟩ : Shape).Idx → EReal :=
  fun i => ((∑ k : Fin 4096, xh (ix2 (i 0) k) * wh (ix2 (i 1) k) + ∑ k : Fin 4096, xh (ix2 (i 0) k) * wl (ix2 (i 1) k))
      + ∑ k : Fin 4096, xl (ix2 (i 0) k) * wh (ix2 (i 1) k)) + b2 (ix2 (0 : Fin 1) (i 1))

/-- The plain layer at row r and column c. -/
theorem linear_apply (x : (⟨2, ![8192, 4096]⟩ : Shape).Idx → EReal) (W : (⟨2, ![4096, 4096]⟩ : Shape).Idx → EReal)
    (b : (⟨1, ![4096]⟩ : Shape).Idx → EReal) (r : Fin 8192) (c : Fin 4096) :
    linear x W b (ix2 r c) = (∑ k : Fin 4096, x (ix2 r k) * W (ix2 c k)) + b (ix1 c) := rfl

/-- The three-product form at row r and column c. -/
theorem split3_apply (xh xl : (⟨2, ![8192, 4096]⟩ : Shape).Idx → EReal) (wh wl : (⟨2, ![4096, 4096]⟩ : Shape).Idx → EReal)
    (b2 : (⟨2, ![1, 4096]⟩ : Shape).Idx → EReal) (r : Fin 8192) (c : Fin 4096) :
    split3 xh xl wh wl b2 (ix2 r c)
      = ((∑ k : Fin 4096, xh (ix2 r k) * wh (ix2 c k) + ∑ k : Fin 4096, xh (ix2 r k) * wl (ix2 c k))
        + ∑ k : Fin 4096, xl (ix2 r k) * wh (ix2 c k)) + b2 (ix2 (0 : Fin 1) c) := rfl

/-- The three-product form with exact residuals of real-valued operands is the plain layer. -/
theorem split3_eq_linear (x xh xl : (⟨2, ![8192, 4096]⟩ : Shape).Idx → EReal)
    (W wh wl : (⟨2, ![4096, 4096]⟩ : Shape).Idx → EReal)
    (b : (⟨1, ![4096]⟩ : Shape).Idx → EReal) (b2 : (⟨2, ![1, 4096]⟩ : Shape).Idx → EReal)
    (hxh : ∀ i, xh i = x i) (hxl : ∀ i, xl i = 0) (hwh : ∀ i, wh i = W i) (hwl : ∀ i, wl i = 0)
    (hb : ∀ c : Fin 4096, b2 (ix2 (0 : Fin 1) c) = b (ix1 c)) :
    split3 xh xl wh wl b2 = linear x W b := by
  funext i
  obtain ⟨r, c, rfl⟩ : ∃ (r : Fin 8192) (c : Fin 4096), i = ix2 r c := ⟨i 0, i 1, eq_ix2 i⟩
  rw [split3_apply, linear_apply,
    three_sums (fun k => xh (ix2 r k)) (fun k => wh (ix2 c k)) (fun k => xl (ix2 r k))
      (fun k => wl (ix2 c k)) (fun k => hxl _) (fun k => hwl _), hb c]
  simp only [hxh, hwh]

end SparseSplit

end
-- ==== Proof.RefLinear.lean ====
/-
  The reference computes the plain masked layer.

  Its stages, read at an index: the mask bit read as 0 or 1, the weight entry times that, the contraction of
  row r of the input with row c of the masked weight over the shared axis, the bias spread first to one row and
  then down the rows, and their sum.  Entry (r, c) is therefore Σₖ x(r, k) · (w(c, k) · mask(c, k)) + bias(c).
-/
import proofs.«151835_j42193758716222_2_alg».proof.Proof.Gen.ReferenceIdeal.Read
import proofs.«151835_j42193758716222_2_alg».proof.Proof.SplitLaw

noncomputable section

namespace Cert.ReferenceIdeal.RefValue

open Cert.ReferenceIdeal Cert.ReferenceIdeal.Read Idealize.ShloMosaic Idealize.ShloMosaic.ValueIdx SparseSplit

/-- The reference's result, as one function of its four arguments, is the plain layer on the masked weight. -/
theorem ref_eq_linear (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i1⟩ : BufTy).Contents (Elt Ideal)) :
    val_main_v5 (F := Ideal) x0 x1 x2 x3 = linear x0 (masked x1 x3) x2 := by
  funext i
  have el : ∀ k : Fin 4096, lidx_main_v2 i k = ix2 (i 0) k := fun k =>
    funext fun a => Fin.ext (by match a with | ⟨0, _⟩ => rfl | ⟨1, _⟩ => rfl)
  have er : ∀ k : Fin 4096, ridx_main_v2 i k = ix2 (i 1) k := fun k =>
    funext fun a => Fin.ext (by match a with | ⟨0, _⟩ => rfl | ⟨1, _⟩ => rfl)
  have eb : idx_main_v3 (idx_main_v4 i) = ix1 (i 1) :=
    funext fun a => Fin.ext (by match a with | ⟨0, _⟩ => rfl)
  rw [val_main_v5_apply, val_main_v2_apply, val_main_v4_apply, val_main_v3_apply]
  simp only [el, er, eb, val_main_v1_apply, val_main_v0_apply]
  rfl

end Cert.ReferenceIdeal.RefValue

end
-- ==== Proof.Finite.lean ====
/-
  What the precondition says of the float inputs: every entry of the input and of the weight is a real number.

  The precondition is the conjunction of three "all entries satisfy |v| < +∞" tests, one per float input, and it
  holds when that conjunction is the bit 1.  A conjunction of bits is 1 only if each is; a reduction by "and" over a
  whole array is 1 only if every entry's bit is 1; and |v| = max(v, −v) < +∞ on the extended reals excludes
  v = +∞ (then max is +∞) and v = −∞ (then −v = +∞), so v is a real number.
-/
import proofs.«151835_j42193758716222_2_alg».proof.Pre_finite_inputs
import proofs.«151835_j42193758716222_2_alg».proof.Proof.Gen.Pre_finite_inputs
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value compares below +∞ is a real number. -/
theorem real_of_abs_lt_top (v : EReal) (h : Ideal.cmp .olt (max v (-v)) (⊤ : EReal) = 1#1) : ∃ r : ℝ, v = (r : EReal) := by
  have hlt : max v (-v) < ⊤ := by
    unfold Ideal.cmp at h
    by_contra hn
    simp [hn] at h
  induction v using EReal.rec with
  | bot => simp at hlt
  | coe r => exact ⟨r, rfl⟩
  | top => simp at hlt

variable [Facts]

/-- Under the precondition every entry of the input and every entry of the weight is a real number. -/
theorem reals_of_pre (a0 : FVec Ideal S8192x4096 .f32) (a1 : FVec Ideal S4096x4096 .f32) (a2 : FVec Ideal S4096 .f32)
    (a3 : IVec S4096x4096 1) (h : fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h8, -⟩ := IntOp.andi_eq_one.1 h0
  obtain ⟨h3, h7⟩ := IntOp.andi_eq_one.1 h8
  refine ⟨fun i => ?_, fun i => ?_⟩
  · have e := Host.reduce_andi_all _ _ _ _ _ h3 i
    refine real_of_abs_lt_top (a0 i) ?_
    rw [← ofBits_inf]
    exact e
  · have e := Host.reduce_andi_all _ _ _ _ _ h7 i
    refine real_of_abs_lt_top (a1 i) ?_
    rw [← ofBits_inf]
    exact e

end Cert.Pre_finite_inputs.Finite

end
-- ==== Proof.Windows.lean ====
/-
  The five arrays the kernel's windows read, as the host operations before the region leave them.

  The host splits each operand into a high part (the value narrowed to the short format) and a low residual (the
  value minus its high part widened back, narrowed again), and lays the bias out as one row.  On the extended
  reals narrowing and widening are the identity, so entry by entry

    high(x) = x,   low(x) = x − x,   high(W) = W,   low(W) = W − W,   W = w · mask,   row(b)(0, c) = b(c),

  with W the masked weight.  For an entry that is a real number the residual x − x is 0.
-/
import proofs.«151835_j42193758716222_2_alg».proof.Proof.Gen.KernelIdeal.Frame
import proofs.«151835_j42193758716222_2_alg».proof.Proof.SplitLaw
import Idealize.ShloMosaic.Lib.StableHlo.Run
import Idealize.ShloMosaic.Lib.ValueIdx
import Idealize.ShloMosaic.Lib.ValueLayout

noncomputable section

namespace Cert.KernelIdeal.Windows

open Cert.KernelIdeal Cert.KernelIdeal.Gen Idealize.ShloMosaic Idealize.ShloMosaic.TcCoe Idealize.SL.Sem
open Idealize.ShloMosaic.StableHlo Idealize.ShloMosaic.ValueIdx SparseSplit

variable (m : (ℓ : Loc nD τ sig) → Buf (Elt Ideal) ℓ)

/-- The four arguments on a core, as arrays of extended reals (and of mask bits). -/
abbrev argX (c : Dev nD) : FVec Ideal S8192x4096 .f32 := m ((c : Thread nD τ).loc main_arg0)
abbrev argW (c : Dev nD) : FVec Ideal S4096x4096 .f32 := m ((c : Thread nD τ).loc main_arg1)
abbrev argB (c : Dev nD) : FVec Ideal S4096 .f32 := m ((c : Thread nD τ).loc main_arg2)
abbrev argM (c : Dev nD) : IVec S4096x4096 1 := m ((c : Thread nD τ).loc main_arg3)

/-- The five arrays the windows read, as the region finds them. -/
abbrev winXh (c : Dev nD) : FVec Ideal S8192x4096 .bf16 := V m c main_v6
abbrev winXl (c : Dev nD) : FVec Ideal S8192x4096 .bf16 := V m c main_v9
abbrev winWh (c : Dev nD) : FVec Ideal S4096x4096 .bf16 := V m c main_v2
abbrev winWl (c : Dev nD) : FVec Ideal S4096x4096 .bf16 := V m c main_v5
abbrev winB (c : Dev nD) : FVec Ideal S1x4096 .f32 := V m c main_v10

/-- The masked weight: the weight times the mask bit read as 0 or 1. -/
abbrev maskedW (c : Dev nD) : S4096x4096.Idx → EReal := masked (argW m c) (argM m c)

/-- The input's high part is the input. -/
theorem x_high (c : Dev nD) (i : S8192x4096.Idx) : winXh m c i = argX m c i := by
  have e : winXh m c = truncf .bf16 (argX m c) bitsLt_bf16_f32 := by
    dsimp only [winXh, argX, Gen.V, Gen.hostOps0]; after_results
  rw [e]; rfl

/-- The input's low part is the input minus itself. -/
theorem x_low (c : Dev nD) (i : S8192x4096.Idx) : winXl m c i = argX m c i - argX m c i := by
  have e : winXl m c = truncf .bf16 (subf (argX m c) (extf .f32 (truncf .bf16 (argX m c) bitsLt_bf16_f32) bitsLt_bf16_f32)) bitsLt_bf16_f32 := by
    dsimp only [winXl, argX, Gen.V, Gen.hostOps0]; after_results
  rw [e]; rfl

/-- The weight's high part is the masked weight. -/
theorem w_high (c : Dev nD) (i : S4096x4096.Idx) : winWh m c i = maskedW m c i := by
  have e : winWh m c = truncf .bf16 (mulf (argW m c) (uitofp .f32 (argM m c))) bitsLt_bf16_f32 := by
    dsimp only [winWh, argW, argM, Gen.V, Gen.hostOps0]; after_results
  rw [e]; rfl

/-- The weight's low part is the masked weight minus itself. -/
theorem w_low (c : Dev nD) (i : S4096x4096.Idx) : winWl m c i = maskedW m c i - maskedW m c i := by
  have e : winWl m c = truncf .bf16 (subf (mulf (argW m c) (uitofp .f32 (argM m c)))
      (extf .f32 (truncf .bf16 (mulf (argW m c) (uitofp .f32 (argM m c))) bitsLt_bf16_f32) bitsLt_bf16_f32)) bitsLt_bf16_f32 := by
    dsimp only [winWl, argW, argM, Gen.V, Gen.hostOps0]; after_results
  rw [e]; rfl

/-- The bias laid out as one row reads, at column q, the bias at q. -/
theorem bias_row (c : Dev nD) (q : Fin 4096) : winB m c (ix2 (0 : Fin 1) q) = argB m c (ix1 q) := by
  have e : winB m c = shapeCast S1x4096 (argB m c) shapeCasts_S4096_S1x4096 := by
    dsimp only [winB, argB, Gen.V, Gen.hostOps0]; after_results; rfl
  rw [e]
  exact shapeCast_a_1a_apply _ _ (0 : Fin 1) q

end Cert.KernelIdeal.Windows

end
-- ==== Proof.LibMatmulNT.lean ====
/-
  A matrix product against a transposed right operand, read at an index, over the extended reals.

  For dimension numbers that contract the second axis of both operands (left operand M×K, right operand N×K,
  no batch axis) the product accumulated into the zero matrix is, at row r and column c, the sum over k < K of
  lhs(r, k) · rhs(c, k).  The contraction index of the dimension numbers is a rank-1 index; the sum is
  re-indexed through its one coordinate.  The record of dimension numbers is a parameter: its four coordinate
  facts are hypotheses, each closed by unfolding at a literal record.
-/
import Idealize.ShloMosaic.PureOps.Ideal.Laws
import Idealize.ShloMosaic.Lib.ValueIdx

noncomputable section

namespace LibMatmulNT

open Idealize.ShloMosaic Idealize.ShloMosaic.ValueIdx

/-- The sum a product against a transposed right operand is, with the contraction index a plain number below K. -/
theorem contr_sum {M K N : Nat} (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (j : (⟨2, ![M, N]⟩ : Shape).Idx) (k : D.contr.Idx), (D.lhsIdx j k 0).val = (j 0).val)
    (hr0 : ∀ (j : (⟨2, ![M, N]⟩ : Shape).Idx) (k : D.contr.Idx), (D.rhsIdx j k 0).val = (j 1).val)
    (lhs : (⟨2, ![M, K]⟩ : Shape).Idx → EReal) (rhs : (⟨2, ![N, K]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 c k) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 c k :=
    funext fun a => Fin.ext (by
      match a with
      | ⟨0, _⟩ => exact hr0 _ _
      | ⟨1, _⟩ => exact (D.rhsIdx_val_of_single hrc (ix2 r c) _).trans hk)
  rw [el, er]

/-- A product against a transposed right operand, accumulated into the zero matrix, read at an index. -/
theorem matmul_zero_apply {M K N : Nat} (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (j : (⟨2, ![M, N]⟩ : Shape).Idx) (k : D.contr.Idx), (D.lhsIdx j k 0).val = (j 0).val)
    (hr0 : ∀ (j : (⟨2, ![M, N]⟩ : Shape).Idx) (k : D.contr.Idx), (D.rhsIdx j k 0).val = (j 1).val)
    (prec : Option ContractPrecision)
    (lhs : FVec Ideal ⟨2, ![M, K]⟩ .f32) (rhs : FVec Ideal ⟨2, ![N, K]⟩ .f32) (r : Fin M) (c : Fin N) :
    FloatOps.matmul D prec lhs rhs (constant (F := Ideal) ⟨2, ![M, N]⟩ .f32 0x00000000#32) (ix2 r c)
      = ∑ k : Fin K, lhs (ix2 r k) * rhs (ix2 c k) := by
  rw [Ideal.matmul_constant_zero_apply]
  exact contr_sum D hr hs hlc hrc hl0 hr0 lhs rhs r c

end LibMatmulNT

end
-- ==== Proof.Payload.lean ====
/-
  What the kernel body stores, read at an index of the output block.

  The body loads two row blocks (high and low part of 512 input rows), two weight blocks (high and low part of
  1024 weight rows) and one bias row, forms three products into zero accumulators — high·high, high·low,
  low·high, each contracting the shared second axis of a row block and a weight block — adds them in that order,
  and adds the bias row spread down the 512 rows.  At row p and column q of the block the stored value is

    (Σₖ xh(p,k)·wh(q,k) + Σₖ xh(p,k)·wl(q,k)) + Σₖ xl(p,k)·wh(q,k) + bias(0,q).
-/
import proofs.«151835_j42193758716222_2_alg».proof.Proof.Gen.KernelIdeal.Skeleton
import proofs.«151835_j42193758716222_2_alg».proof.Proof.LibMatmulNT
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen Idealize.ShloMosaic Idealize.ShloMosaic.ValueIdx

/-- The left operand's row coordinate of a product term is the output's row. -/
theorem lhs_row (j : S512x1024.Idx) (k : dot_S512x4096_S1024x4096_S512x1024_1_1_0_0_n_n.contr.Idx) :
    (dot_S512x4096_S1024x4096_S512x1024_1_1_0_0_n_n.lhsIdx j k 0).val = (j 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl

/-- The right operand's row coordinate of a product term is the output's column. -/
theorem rhs_row (j : S512x1024.Idx) (k : dot_S512x4096_S1024x4096_S512x1024_1_1_0_0_n_n.contr.Idx) :
    (dot_S512x4096_S1024x4096_S512x1024_1_1_0_0_n_n.rhsIdx j k 0).val = (j 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl

/-- One product of a row block with a weight block into the zero accumulator: at (p, q) the sum over the shared
    axis of row p of the left block against row q of the right block. -/
theorem product_at (l : FVec Ideal S512x4096 .bf16) (r : FVec Ideal S1024x4096 .bf16) (p : Fin 512) (q : Fin 1024) :
    (matmul dot_S512x4096_S1024x4096_S512x1024_1_1_0_0_n_n none l r (constant (F := Ideal) S512x1024 .f32 0x00000000#32) : FVec Ideal S512x1024 .f32) (ix2 p q)
      = ∑ k : Fin 4096, l (ix2 p k) * r (ix2 q k) := by
  simp only [matmul]
  rw [Ideal.matmul_constant_zero_apply]
  exact LibMatmulNT.contr_sum dot_S512x4096_S1024x4096_S512x1024_1_1_0_0_n_n rfl rfl rfl rfl lhs_row rhs_row l r p q

/-- The stored value at row p and column q of the output block. -/
theorem stored_at (x0 x1 : Vec Ideal S512x4096 .bf16) (x2 x3 : Vec Ideal S1024x4096 .bf16) (x4 : Vec Ideal S1x1024 .f32)
    (p : Fin 512) (q : Fin 1024) :
    k0_pay1 x0 x1 x2 x3 x4 (ix2 p q)
      = ((∑ k : Fin 4096, x0 (ix2 p k) * x2 (ix2 q k) + ∑ k : Fin 4096, x0 (ix2 p k) * x3 (ix2 q k))
          + ∑ k : Fin 4096, x1 (ix2 p k) * x2 (ix2 q k)) + x4 (ix2 (0 : Fin 1) q) := by
  unfold k0_pay1
  simp only [shapeCast_self]
  rw [addf_apply, addf_apply, addf_apply, product_at, product_at, product_at, broadcastTo_1b_ab_apply]

end Cert.KernelIdeal.Payload

end
-- ==== Proof.Tiles.lean ====
/-
  From the blocks the grid points write back to the whole output array.

  The grid is 4 × 16.  The point whose output block is at block-row a and block-column b reads input rows
  512·a … 512·a + 511 (high and low parts, all 4096 columns), weight rows 1024·b … 1024·b + 1023 (high and low
  parts, all 4096 columns) and bias columns 1024·b … 1024·b + 1023, and writes output rows 512·a …, columns
  1024·b ….  Entry (r, c) of the output depends on input row r, weight row c and bias column c only, so every
  written block is the restriction of ONE function of the five arrays — the three-product form — to the
  block's rows and columns.  The 16 × 4 blocks tile the 8192 × 4096 output: row r lies in block-row r / 512 and
  column c in block-column c / 1024, so after the last point the whole output array is that function.
-/
import proofs.«151835_j42193758716222_2_alg».proof.Proof.Gen.KernelIdeal.Value
import proofs.«151835_j42193758716222_2_alg».proof.Proof.Payload
import proofs.«151835_j42193758716222_2_alg».proof.Proof.Windows
import proofs.«151835_j42193758716222_2_alg».proof.Proof.SplitLaw
import Idealize.ShloMosaic.Lib.Pipeline.Value
import Idealize.ShloMosaic.Lib.Tactic

noncomputable section

namespace Cert.KernelIdeal.Tiles

open Cert.KernelIdeal Cert.KernelIdeal.Gen Cert.KernelIdeal.Value Cert.KernelIdeal.Windows Cert.KernelIdeal.Payload
open Idealize.ShloMosaic Idealize.ShloMosaic.TcCoe Idealize.SL.Sem Idealize.ShloMosaic.ValueIdx SparseSplit
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The whole output array as one function of the five arrays the windows read: the three-product form. -/
abbrev outArray (c : Dev nD) : S8192x4096.Idx → EReal :=
  split3 (winXh m c) (winXl m c) (winWh m c) (winWl m c) (winB m c)

/-- The block indices of the six windows at a grid point, relative to the output's (decided over the 64 points):
    both input windows sit at the output's block-row, both weight windows and the bias at its block-column, and
    every window spans its whole contracted axis. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 3 :=
  (by decide +kernel : ∀ t : Fin grid0.N, _)

/-- Every one of the 16 × 4 output blocks is some grid point's. -/
theorem every_block : ∀ (a : Fin 16) (b : Fin 4), ∃ t : Fin cfg0.N, win0_5.index t = ![a.val, b.val] :=
  (by decide +kernel : ∀ (a : Fin 16) (b : Fin 4), ∃ t : Fin grid0.N, win0_5.index t = ![a.val, b.val])

/-! ## Each window's block, read at an entry, is its array at the matching row -/

/-- Row p of the high input block at a point is row (block-row · 512 + p) of the high input array. -/
theorem rows_high (c : Dev nD) (t : Fin cfg0.N) (p : Fin 512) (k : Fin 4096) (r : Fin 8192)
    (hr : r.val = win0_5.index t (0 : Fin 2) * 512 + p.val) :
    (iblk m c 0 t : Vec Ideal S512x4096 .bf16) (ix2 p k) = winXh m c (ix2 r k) := by
  obtain ⟨e0, e1, -⟩ := block_indices t
  unfold iblk
  rw [View.read_apply]
  show V m c main_v6 _ = V m c main_v6 _
  congr 1
  funext a
  apply Fin.ext
  match a with
  | ⟨0, _⟩ => show win0_0.index t (0 : Fin 2) * 512 + 1 * p.val = r.val; omega
  | ⟨1, _⟩ => show win0_0.index t (1 : Fin 2) * 4096 + 1 * k.val = k.val; omega

/-- The same for the low input block. -/
theorem rows_low (c : Dev nD) (t : Fin cfg0.N) (p : Fin 512) (k : Fin 4096) (r : Fin 8192)
    (hr : r.val = win0_5.index t (0 : Fin 2) * 512 + p.val) :
    (iblk m c 1 t : Vec Ideal S512x4096 .bf16) (ix2 p k) = winXl m c (ix2 r k) := by
  obtain ⟨-, -, e0, e1, -⟩ := block_indices t
  unfold iblk
  rw [View.read_apply]
  show V m c main_v9 _ = V m c main_v9 _
  congr 1
  funext a
  apply Fin.ext
  match a with
  | ⟨0, _⟩ => show win0_1.index t (0 : Fin 2) * 512 + 1 * p.val = r.val; omega
  | ⟨1, _⟩ => show win0_1.index t (1 : Fin 2) * 4096 + 1 * k.val = k.val; omega

/-- Row q of the high weight block at a point is row (block-column · 1024 + q) of the high weight array. -/
theorem weights_high (c : Dev nD) (t : Fin cfg0.N) (q : Fin 1024) (k : Fin 4096) (o : Fin 4096)
    (ho : o.val = win0_5.index t (1 : Fin 2) * 1024 + q.val) :
    (iblk m c 2 t : Vec Ideal S1024x4096 .bf16) (ix2 q k) = winWh m c (ix2 o k) := by
  obtain ⟨-, -, -, -, e0, e1, -⟩ := block_indices t
  unfold iblk
  rw [View.read_apply]
  show V m c main_v2 _ = V m c main_v2 _
  congr 1
  funext a
  apply Fin.ext
  match a with
  | ⟨0, _⟩ => show win0_2.index t (0 : Fin 2) * 1024 + 1 * q.val = o.val; omega
  | ⟨1, _⟩ => show win0_2.index t (1 : Fin 2) * 4096 + 1 * k.val = k.val; omega

/-- The same for the low weight block. -/
theorem weights_low (c : Dev nD) (t : Fin cfg0.N) (q : Fin 1024) (k : Fin 4096) (o : Fin 4096)
    (ho : o.val = win0_5.index t (1 : Fin 2) * 1024 + q.val) :
    (iblk m c 3 t : Vec Ideal S1024x4096 .bf16) (ix2 q k) = winWl m c (ix2 o k) := by
  obtain ⟨-, -, -, -, -, -, e0, e1, -⟩ := block_indices t
  unfold iblk
  rw [View.read_apply]
  show V m c main_v5 _ = V m c main_v5 _
  congr 1
  funext a
  apply Fin.ext
  match a with
  | ⟨0, _⟩ => show win0_3.index t (0 : Fin 2) * 1024 + 1 * q.val = o.val; omega
  | ⟨1, _⟩ => show win0_3.index t (1 : Fin 2) * 4096 + 1 * k.val = k.val; omega

/-- Column q of the bias block at a point is column (block-column · 1024 + q) of the bias row. -/
theorem bias_cols (c : Dev nD) (t : Fin cfg0.N) (q : Fin 1024) (o : Fin 4096)
    (ho : o.val = win0_5.index t (1 : Fin 2) * 1024 + q.val) :
    (iblk m c 4 t : Vec Ideal S1x1024 .f32) (ix2 (0 : Fin 1) q) = winB m c (ix2 (0 : Fin 1) o) := by
  obtain ⟨-, -, -, -, -, -, -, -, e0, e1, -⟩ := block_indices t
  unfold iblk
  rw [View.read_apply]
  show V m c main_v10 _ = V m c main_v10 _
  congr 1
  funext a
  apply Fin.ext
  match a with
  | ⟨0, _⟩ => show win0_4.index t (0 : Fin 2) * 1 + 1 * 0 = 0; omega
  | ⟨1, _⟩ => show win0_4.index t (1 : Fin 2) * 1024 + 1 * q.val = o.val; omega

/-! ## What a point writes back, the cover, and the array after the run -/

/-- What a grid point writes back is its block of the three-product form of the five arrays. -/
theorem flushed_eq (c : Dev nD) (t : Fin cfg0.N) :
    (dats m 0 c).flushed 5 t = ((cfg0.win 5).blk t).view.read (Elt Ideal) (outArray m c) := by
  rw [flushed5]
  unfold out0_5
  rw [View.canon_unit_zero zero_offsets]
  simp only [View.ld_unit_zero (S := S512x4096) zero_offsets, View.ld_unit_zero (S := S1024x4096) zero_offsets,
    View.ld_unit_zero (S := S1x1024) zero_offsets]
  funext j
  obtain ⟨p, q, rfl⟩ : ∃ (p : Fin 512) (q : Fin 1024), j = ix2 p q := ⟨j 0, j 1, eq_ix2 j⟩
  have h0 : ((((cfg0.win 5).blk t).view.emb (ix2 p q)) 0).val = win0_5.index t (0 : Fin 2) * 512 + p.val := by
    show win0_5.index t (0 : Fin 2) * 512 + 1 * p.val = _; omega
  have h1 : ((((cfg0.win 5).blk t).view.emb (ix2 p q)) 1).val = win0_5.index t (1 : Fin 2) * 1024 + q.val := by
    show win0_5.index t (1 : Fin 2) * 1024 + 1 * q.val = _; omega
  show k0_pay1 (iblk m c 0 t) (iblk m c 1 t) (iblk m c 2 t) (iblk m c 3 t) (iblk m c 4 t) (ix2 p q)
    = split3 (winXh m c) (winXl m c) (winWh m c) (winWl m c) (winB m c) (((cfg0.win 5).blk t).view.emb (ix2 p q))
  obtain ⟨r, o, hi, hr, ho⟩ : ∃ (r : Fin 8192) (o : Fin 4096), ((cfg0.win 5).blk t).view.emb (ix2 p q) = ix2 r o
      ∧ r.val = win0_5.index t (0 : Fin 2) * 512 + p.val ∧ o.val = win0_5.index t (1 : Fin 2) * 1024 + q.val :=
    ⟨(((cfg0.win 5).blk t).view.emb (ix2 p q)) 0, (((cfg0.win 5).blk t).view.emb (ix2 p q)) 1, eq_ix2 _, h0, h1⟩
  rw [hi, split3_apply]
  refine (stored_at (iblk m c 0 t) (iblk m c 1 t) (iblk m c 2 t) (iblk m c 3 t) (iblk m c 4 t) p q).trans ?_
  exact congrArg₂ (· + ·)
    (congrArg₂ (· + ·)
      (congrArg₂ (· + ·)
        (Finset.sum_congr rfl fun k _ => congrArg₂ (· * ·) (rows_high m c t p k r hr) (weights_high m c t q k o ho))
        (Finset.sum_congr rfl fun k _ => congrArg₂ (· * ·) (rows_high m c t p k r hr) (weights_low m c t q k o ho)))
      (Finset.sum_congr rfl fun k _ => congrArg₂ (· * ·) (rows_low m c t p k r hr) (weights_high m c t q k o ho)))
    (bias_cols m c t q o ho)

/-- An index of the output is in a point's block iff each coordinate is in the block's range on its axis. -/
theorem mem_block (t : Fin cfg0.N) (i : S8192x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v11).slice (win0_5.rect t)).set ↔ _
  rw [View.set_slice_whole, Rect.mem_set_unit]
  exact Iff.rfl

/-- Every index of the output lies in some point's block: row r in block-row r / 512, column c in block-column c / 1024. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := every_block ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the run the output array is the three-product form of the five arrays. -/
theorem final (c : Dev nD) : (dats m 0 c).arrAt 5 cfg0.N = outArray m c :=
  (dats m 0 c).arrAt_eq_of_cover 5 (outArray m c) (fun t _ => flushed_eq m c t) covered

/-- The kernel's run: it terminates with the output array at the three-product form, the arguments unchanged. -/
theorem run : θ_run defs (onTc (τ := τ) (main (F := Ideal))) ⟨m, fun _ => 0, ρ⟩ fun r => ∀ c : Dev nD,
      r.2.mem ((c : Thread nD τ).loc main_v11) = outArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Tiles

end
-- ==== Proof.lean ====
/-
  A masked linear layer computed with error-compensated products equals the plain masked layer, on the extended reals.

  Both programs first form the masked weight W = w · mask (the mask bit read as 0 or 1).  The reference contracts
  each input row with each row of W and adds the bias: entry (r, c) is Σₖ x(r,k) · W(c,k) + b(c).

  The kernel splits x and W into a high part (the value narrowed to a short format) and a low residual (the
  value minus its high part), and on a 4 × 16 grid of 512 × 1024 output blocks computes
  high·high + high·low + low·high + bias.  On the extended reals narrowing is the identity, so high(v) = v and
  low(v) = v − v.  The precondition makes every entry of x and of w a real number; a mask bit times a real is
  real; and v − v = 0 for a real v (it is not 0 at ±∞, which is where the precondition is used).  The two
  correction sums are then sums of zeros, and the kernel's entry (r, c) is the reference's.

  The three frames are the generated frame runs (the reference's is its generated run with the result dropped);
  the idealization rewrote nothing, so its preservation claim is trivial.
-/
import proofs.«151835_j42193758716222_2_alg».proof.Defs
import proofs.«151835_j42193758716222_2_alg».proof.Proof.Gen.Kernel
import proofs.«151835_j42193758716222_2_alg».proof.Proof.Gen.Kernel.Skeleton
import proofs.«151835_j42193758716222_2_alg».proof.Proof.Gen.Kernel.Launch
import proofs.«151835_j42193758716222_2_alg».proof.Proof.Gen.Kernel.Points
import proofs.«151835_j42193758716222_2_alg».proof.Proof.Gen.Kernel.Frame
import proofs.«151835_j42193758716222_2_alg».proof.Proof.Gen.KernelIdeal
import proofs.«151835_j42193758716222_2_alg».proof.Proof.Gen.KernelIdeal.Skeleton
import proofs.«151835_j42193758716222_2_alg».proof.Proof.Gen.KernelIdeal.Launch
import proofs.«151835_j42193758716222_2_alg».proof.Proof.Gen.KernelIdeal.Points
import proofs.«151835_j42193758716222_2_alg».proof.Proof.Gen.KernelIdeal.Frame
import proofs.«151835_j42193758716222_2_alg».proof.Proof.Gen.ReferenceIdeal
import proofs.«151835_j42193758716222_2_alg».proof.Proof.Gen.Pre_finite_inputs
import proofs.«151835_j42193758716222_2_alg».proof.Proof.Gen.KernelIdeal.Value
import proofs.«151835_j42193758716222_2_alg».proof.Proof.Gen.ReferenceIdeal.Run
import proofs.«151835_j42193758716222_2_alg».proof.Proof.Gen.ReferenceIdeal.Read
import proofs.«151835_j42193758716222_2_alg».proof.Proof.SplitLaw
import proofs.«151835_j42193758716222_2_alg».proof.Proof.RefLinear
import proofs.«151835_j42193758716222_2_alg».proof.Proof.Finite
import proofs.«151835_j42193758716222_2_alg».proof.Proof.Windows
import proofs.«151835_j42193758716222_2_alg».proof.Proof.Tiles
import Idealize.ShloMosaic.Adequacy
import Idealize.ShloMosaic.Init

noncomputable section

namespace Cert.Proof

open Idealize.ShloMosaic Idealize.ShloMosaic.TcCoe Idealize.SL.Sem SparseSplit
open Cert.KernelIdeal.Windows

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition the three-product form of the five arrays the windows read is the plain layer of the
    arguments: the high parts are the values, the low residuals of real values are zero, the bias row is the bias. -/
theorem out_eq_linear (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Tiles.outArray m c = linear (argX m c) (maskedW m c) (argB m c) := by
  obtain ⟨hx, hw⟩ := Cert.Pre_finite_inputs.Finite.reals_of_pre _ _ _ _ (hpre c)
  refine split3_eq_linear (argX m c) _ _ (maskedW m c) _ _ (argB m c) _ (fun i => x_high m c i) (fun i => ?_)
    (fun i => w_high m c i) (fun i => ?_) (fun q => bias_row m c q)
  · rw [x_low]; exact sub_self_of_real (hx i)
  · rw [w_low]; exact sub_self_of_real (real_mul_nat (hw i) _)

/-- From memories agreeing on the arguments both programs end with the plain masked layer of those arguments. -/
theorem algebraic : Cert.algebraic_KernelIdeal_ReferenceIdeal := by
  intro m ρ m' ρ' hpre hagree
  refine ⟨fun c => linear (argX m c) (maskedW m c) (argB m c), ?_, ?_⟩
  · exact (θ_run Cert.KernelIdeal.defs _ _).mono
      (fun r h c => ⟨(h c).1.trans (out_eq_linear m hpre c), (h c).2⟩) (Cert.KernelIdeal.Tiles.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v5_eq, Cert.ReferenceIdeal.RefValue.ref_eq_linear,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
